-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S5000 : Shape := ⟨1, ![5000]⟩

abbrev nBuf : Space → Nat
  | .hbm => 64
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000x1, .f32⟩
  | .hbm, ⟨20, _⟩ => ⟨S_, .f32⟩
  | .hbm, ⟨21, _⟩ => ⟨S100000x1, .f32⟩
  | .hbm, ⟨22, _⟩ => ⟨S1600000x1, .i32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S64x64, .f32⟩
  | .hbm, ⟨38, _⟩ => ⟨S64x64, .f32⟩
  | .hbm, ⟨39, _⟩ => ⟨S1x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S1x64, .f32⟩
  | .hbm, ⟨63, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S100000x64.size a
  hwx1_11 : ∀ i : grid1.Coords, EltTy.bits .f32 = 32 ∨ (Rect.block (s := S100000x64) S5000x64.size (cc1_transform_11 i) (hinb1_11 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v40) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v41) S5000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000 : Shape := ⟨1, ![100000]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S1600000x1, .f32⟩
  | .hbm, ⟨33, _⟩ => ⟨S_, .f32⟩
  | .hbm, ⟨34, _⟩ => ⟨S100000x1, .f32⟩
  | .hbm, ⟨35, _⟩ => ⟨S1600000x1, .i32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000, .f32⟩
  | .hbm, ⟨56, _⟩ => ⟨S100000x1, .f32⟩
  | .hbm, ⟨57, _⟩ => ⟨S100000x1, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S_, .f32⟩
  | .hbm, ⟨80, _⟩ => ⟨S1600000x1, .f32⟩
  | .hbm, ⟨81, _⟩ => ⟨S_, .f32⟩
  | .hbm, ⟨82, _⟩ => ⟨S100000x1, .f32⟩
  | .hbm, ⟨83, _⟩ => ⟨S1600000x1, .i32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S64x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S64x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S_, .f32⟩
  | .hbm, ⟨103, _⟩ => ⟨S100000, .f32⟩
  | .hbm, ⟨104, _⟩ => ⟨S100000x1, .f32⟩
  | .hbm, ⟨105, _⟩ => ⟨S100000x1, .f32⟩
  | .hbm, ⟨106, _⟩ => ⟨S_, .f32⟩
  | .hbm, ⟨107, _⟩ => ⟨S100000x1, .f32⟩
  | .hbm, ⟨108, _⟩ => ⟨S100000x1, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | .hbm, ⟨114, _⟩ => ⟨S64x64, .f32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | .hbm, ⟨119, _⟩ => ⟨S64x64, .f32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call0_cst : Ref sig .tc := ⟨.hbm, 63, rfl⟩
abbrev main_call0_v0 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call1_cst : Ref sig .tc := ⟨.hbm, 111, rfl⟩
abbrev main_call1_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel program's run with its result NAMED: every weakly fair execution of the four segments (host
  stretch, first region, host stretch, second region) terminates without a fault, the result buffer ends holding
  what the last segment boundary's contents hold there, and the argument arrays end as launched. The boundary contents
  are the fold through the segments: each host stretch applies its operations, each region replaces its arrays by
  what its write-backs leave.
-/
import proofs.«131663_j33887291966072_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying the launch theorem's conclusion with this statement has to unfold definitions inside types
set_option backward.isDefEq.respectTransparency.types false in
/-- The run of the four segments, the result buffer read against the last boundary's contents. -/
theorem run_named : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Hand

end
-- ==== Proof.Spec.lean ====
/-
  The mathematics both programs compute, one row of the node table at a time, on the extended reals.

  A mean-aggregating graph layer takes, for a node, its feature row `xr`, the sum `sr` of its in-neighbours' feature
  rows and its in-degree `c`, and forms
      lin q = ((Σₖ xr k · Wl (k, q)) + bl q + Σₖ (sr k / max c 1) · Wr (k, q)) + br q ,
  then divides the row by max (‖lin‖₂, ε) and clips it at zero (`rowLayer`). The head applies two affine maps in a row
  (`rowPost`). Nothing here depends on the number of nodes: every entry of the result is a function of ONE row of each
  row-indexed operand, which is why computing the layer a block of rows at a time gives the same table.
-/
import Idealize.ShloMosaic.PureOps.Ideal
import Idealize.ShloMosaic.Lib.ValueIdx

noncomputable section

open scoped BigOperators

namespace Cert.Sage

open Idealize.ShloMosaic Idealize.ShloMosaic.ValueIdx

/-- A 64 × 64 weight table over the extended reals. -/
abbrev W64 : Type := (⟨2, ![64, 64]⟩ : Shape).Idx → EReal

/-- The affine part of the layer at one node: own features through `wl`, mean of the neighbours' through `wr`. -/
def rowLin (xr sr : Fin 64 → EReal) (c : EReal) (wl wr : W64) (bl br : Fin 64 → EReal) (q : Fin 64) : EReal :=
  ((∑ k : Fin 64, xr k * wl (ix2 k q)) + bl q
    + ∑ k : Fin 64, Ideal.div (sr k) (max c (Ideal.ofBits .f32 0x3F800000#32)) * wr (ix2 k q)) + br q

/-- A row divided by the larger of its Euclidean norm and ε, then clipped at zero. -/
def rowNorm (r : Fin 64 → EReal) (q : Fin 64) : EReal :=
  max (Ideal.div (r q) (max (Ideal.sqrt (∑ k : Fin 64, r k * r k)) (Ideal.ofBits .f32 0x2B8CBCCC#32)))
    (Ideal.ofBits .f32 0x00000000#32)

/-- One node's row of a whole layer. -/
def rowLayer (xr sr : Fin 64 → EReal) (c : EReal) (wl wr : W64) (bl br : Fin 64 → EReal) : Fin 64 → EReal :=
  rowNorm (rowLin xr sr c wl wr bl br)

/-- One affine map of the head. -/
def rowAff (h : Fin 64 → EReal) (w : W64) (b : Fin 64 → EReal) (q : Fin 64) : EReal :=
  (∑ k : Fin 64, h k * w (ix2 k q)) + b q

/-- The head: two affine maps, nothing between them. -/
def rowPost (h : Fin 64 → EReal) (w1 : W64) (b1 : Fin 64 → EReal) (w2 : W64) (b2 : Fin 64 → EReal) : Fin 64 → EReal :=
  rowAff (rowAff h w1 b1) w2 b2

/-- The node table after one layer: row `p` is `rowLayer` of row `p` of the features, of the neighbour sums and of the
    degree column. -/
def layer {n : Nat} (x s : (⟨2, ![n, 64]⟩ : Shape).Idx → EReal) (cnt : (⟨2, ![n, 1]⟩ : Shape).Idx → EReal)
    (wl wr : W64) (bl br : Fin 64 → EReal) : (⟨2, ![n, 64]⟩ : Shape).Idx → EReal :=
  fun i => rowLayer (fun k => x (ix2 (i 0) k)) (fun k => s (ix2 (i 0) k)) (cnt (ix2 (i 0) (0 : Fin 1))) wl wr bl br (i 1)

/-- The node table after the head. -/
def post {n : Nat} (h : (⟨2, ![n, 64]⟩ : Shape).Idx → EReal) (w1 : W64) (b1 : Fin 64 → EReal)
    (w2 : W64) (b2 : Fin 64 → EReal) : (⟨2, ![n, 64]⟩ : Shape).Idx → EReal :=
  fun i => rowPost (fun k => h (ix2 (i 0) k)) w1 b1 w2 b2 (i 1)

end Cert.Sage

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Row reductions kept as a column, read at an index, at the ideal values: the sum (or the maximum) of a matrix
  along its rows, viewed as a one-column matrix, holds at `(p, u)` the sum (the fold of `max`) of row `p`.
-/
import Idealize.ShloMosaic.PureOps.Ideal.Laws
import Idealize.ShloMosaic.Lib.ValueIdx
import Idealize.ShloMosaic.Lib.Pipeline.Value
import proofs.«131663_j33887291966072_2_alg».proof.Proof.LibKeepdims

namespace Cert.Lib

open Idealize.ShloMosaic Idealize.ShloMosaic.ValueIdx

variable {φ : FTy}

/-- Inserting the column coordinate `k` into the row index `p` gives `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The row sums of an `[a, b]` matrix, kept as an `[a, 1]` column: at `(p, u)` the sum of row `p`. -/
theorem rowSum_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ v acc h hφ hacc) hc (ix2 p u)
      = ∑ k : Fin b, v (ix2 p k) := by
  rw [shapeCast_a_a1_apply]
  refine (Ideal.multiReduction_add_single v acc h hφ hacc (ix1 p)).trans ?_
  exact Finset.sum_congr rfl fun k _ => congrArg v (lift_row h p k)

/-- The row maxima likewise: at `(p, u)` the fold of `max`, from the accumulator's value, over row `p`. -/
theorem rowMax_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (p : Fin a) (u : Fin 1) :
    shapeCast ⟨2, ![a, 1]⟩ (multiReduction .maximumf [1] ⟨1, ![a]⟩ v acc h hφ hacc) hc (ix2 p u)
      = (Finset.univ : Finset (Fin b)).fold max (Ideal.ofBits φ acc) (fun k => v (ix2 p k)) := by
  rw [shapeCast_a_a1_apply]
  refine (Ideal.multiReduction_maximumf_single v acc h hφ hacc (ix1 p)).trans ?_
  have e : (v ∘ h.lift (ix1 p)) = fun k : Fin b => v (ix2 p k) := funext fun k => congrArg v (lift_row h p k)
  rw [e]
  rfl

end Cert.Lib
-- ==== Proof.BlockOps.lean ====
/-
  The kernel bodies' vector operations read at one entry of a block of rows, at the ideal instance: the affine part
  (two matrix products into a zero accumulator and two bias rows repeated down the block), the row-wise
  normalise-and-clip, and the quotient of a block by a column repeated across it. Each lemma takes what its operands
  hold on ROW p as hypotheses, so that they compose without ever naming a whole block.
-/
import Idealize.ShloMosaic.PureOps.Ideal.Laws
import Idealize.ShloMosaic.Lib.ValueIdx
import Idealize.ShloMosaic.Lib.Pipeline.Value
import proofs.«131663_j33887291966072_2_alg».proof.Proof.Spec
import proofs.«131663_j33887291966072_2_alg».proof.Proof.LibPlainMatmul
import proofs.«131663_j33887291966072_2_alg».proof.Proof.LibRowReduce
import proofs.«131663_j33887291966072_2_alg».proof.Proof.LibKeepdims

noncomputable section

open scoped BigOperators

namespace Cert.Sage

open Idealize.ShloMosaic Idealize.ShloMosaic.ValueIdx

/-- A one-row matrix repeated down `a` rows reads, at (p, q), its entry q. -/
theorem rowBroadcast_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The neighbour sums divided by the clipped degree column, at (p, k). -/
theorem meanOf_apply {a : ℕ} (s : FVec Ideal ⟨2, ![a, 64]⟩ .f32) (cnt : FVec Ideal ⟨2, ![a, 1]⟩ .f32) (one : EReal)
    (h : (⟨2, ![a, 1]⟩ : Shape).Broadcasts ⟨2, ![a, 64]⟩) (p : Fin a) (k : Fin 64) :
    divf s (broadcastTo ⟨2, ![a, 64]⟩ (maximumf cnt (broadcast ⟨2, ![a, 1]⟩ one)) h) (ix2 p k)
      = Ideal.div (s (ix2 p k)) (max (cnt (ix2 p (0 : Fin 1))) one) := by
  rw [divf_apply, Cert.Lib.broadcastTo_a1_ab_apply]
  rfl

/-- The affine part of a layer on a block of rows, at (p, q): both products run into the zero accumulator. -/
theorem lin_apply {a : ℕ} (d : DotDims ⟨2, ![a, 64]⟩ ⟨2, ![64, 64]⟩ ⟨2, ![a, 64]⟩)
    (hlb : d.lhsBatch = []) (hln : d.lhsNonContracting = [0]) (hlc : d.lhsContracting = [1])
    (hrb : d.rhsBatch = []) (hrn : d.rhsNonContracting = [1]) (hrc : d.rhsContracting = [0])
    {φ₁ φ₂ φ₃ φ₄ : FTy}
    (A : FVec Ideal ⟨2, ![a, 64]⟩ φ₁) (Wl : FVec Ideal ⟨2, ![64, 64]⟩ φ₂)
    (B : FVec Ideal ⟨2, ![a, 64]⟩ φ₃) (Wr : FVec Ideal ⟨2, ![64, 64]⟩ φ₄)
    (bl br : FVec Ideal ⟨2, ![1, 64]⟩ .f32) (hb : (⟨2, ![1, 64]⟩ : Shape).Broadcasts ⟨2, ![a, 64]⟩)
    (p : Fin a) (q : Fin 64) :
    addf (addf (addf (matmul d none A Wl (constant (F := Ideal) ⟨2, ![a, 64]⟩ .f32 0x00000000#32))
        (broadcastTo ⟨2, ![a, 64]⟩ bl hb))
        (matmul d none B Wr (constant (F := Ideal) ⟨2, ![a, 64]⟩ .f32 0x00000000#32)))
        (broadcastTo ⟨2, ![a, 64]⟩ br hb) (ix2 p q)
      = ((∑ k : Fin 64, A (ix2 p k) * Wl (ix2 k q)) + bl (ix2 (0 : Fin 1) q)
          + ∑ k : Fin 64, B (ix2 p k) * Wr (ix2 k q)) + br (ix2 (0 : Fin 1) q) := by
  rw [addf_apply, addf_apply, addf_apply, rowBroadcast_apply, rowBroadcast_apply,
    Cert.SE.Lib.matmul_plain_apply d hlb hln hlc hrb hrn hrc, Cert.SE.Lib.matmul_plain_apply d hlb hln hlc hrb hrn hrc]

/-- One affine map of the head on a block of rows, at (p, q). -/
theorem aff_apply {a : ℕ} (d : DotDims ⟨2, ![a, 64]⟩ ⟨2, ![64, 64]⟩ ⟨2, ![a, 64]⟩)
    (hlb : d.lhsBatch = []) (hln : d.lhsNonContracting = [0]) (hlc : d.lhsContracting = [1])
    (hrb : d.rhsBatch = []) (hrn : d.rhsNonContracting = [1]) (hrc : d.rhsContracting = [0])
    {φ₁ φ₂ : FTy}
    (A : FVec Ideal ⟨2, ![a, 64]⟩ φ₁) (W : FVec Ideal ⟨2, ![64, 64]⟩ φ₂)
    (b : FVec Ideal ⟨2, ![1, 64]⟩ .f32) (hb : (⟨2, ![1, 64]⟩ : Shape).Broadcasts ⟨2, ![a, 64]⟩)
    (p : Fin a) (q : Fin 64) :
    addf (matmul d none A W (constant (F := Ideal) ⟨2, ![a, 64]⟩ .f32 0x00000000#32))
        (broadcastTo ⟨2, ![a, 64]⟩ b hb) (ix2 p q)
      = (∑ k : Fin 64, A (ix2 p k) * W (ix2 k q)) + b (ix2 (0 : Fin 1) q) := by
  rw [addf_apply, rowBroadcast_apply, Cert.SE.Lib.matmul_plain_apply d hlb hln hlc hrb hrn hrc]

/-- Normalise-and-clip on a block of rows, at (p, q), from what the block holds on row p. -/
theorem norm_apply {a : ℕ} (v : FVec Ideal ⟨2, ![a, 64]⟩ .f32) (r : Fin 64 → EReal) (p : Fin a)
    (hv : ∀ k : Fin 64, v (ix2 p k) = r k)
    (hr : (⟨2, ![a, 64]⟩ : Shape).Reduces [1] ⟨1, ![a]⟩) (hφ : FKind.Formats FTy.f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, 64]⟩)
    (q : Fin 64) :
    maximumf (divf v (broadcastTo ⟨2, ![a, 64]⟩
        (maximumf (sqrt (shapeCast ⟨2, ![a, 1]⟩ (multiReduction .add [1] ⟨1, ![a]⟩ (mulf v v) 0x00000000#32 hr hφ hacc) hc))
          (broadcast ⟨2, ![a, 1]⟩ (Scalar.ofBits (F := Ideal) .f32 0x2B8CBCCC#32))) hb))
        (broadcast ⟨2, ![a, 64]⟩ (Scalar.ofBits (F := Ideal) .f32 0x00000000#32)) (ix2 p q)
      = rowNorm r q := by
  rw [maximumf_apply, divf_apply, Cert.Lib.broadcastTo_a1_ab_apply, maximumf_apply]
  show max (Ideal.div (v (ix2 p q)) (max (Ideal.sqrt (shapeCast ⟨2, ![a, 1]⟩
      (multiReduction .add [1] ⟨1, ![a]⟩ (mulf v v) 0x00000000#32 hr hφ hacc) hc (ix2 p (0 : Fin 1)))) _)) _ = _
  rw [Cert.Lib.rowSum_col (mulf v v) 0x00000000#32 hr hφ hacc hc p 0]
  simp only [mulf_apply, hv]
  rfl

end Cert.Sage

end
-- ==== Proof.Body.lean ====
/-
  What the two kernel bodies compute on a block of 5000 node rows, at one entry (p, q) of the block, at the ideal
  instance: the first body is one layer of the block's rows (`rowLayer`), the second the same layer followed by the
  head (`rowPost`). The weight tables and bias rows enter whole; the changes of float format around the matrix
  products are the identity on extended reals.
-/
import proofs.«131663_j33887291966072_2_alg».proof.Proof.Gen.KernelIdeal.Skeleton
import proofs.«131663_j33887291966072_2_alg».proof.Proof.BlockOps

noncomputable section

open scoped BigOperators

namespace Cert.KernelIdeal.Hand

open Cert.KernelIdeal Cert.KernelIdeal.Gen Idealize.ShloMosaic Idealize.ShloMosaic.ValueIdx Cert.Sage

/-- The first body's stored value at (p, q): the layer on row p of the block. -/
theorem layerPay0_apply (x0 x1 : Vec Ideal S5000x64 .f32) (x2 : Vec Ideal S5000x1 .f32) (x3 x4 : Vec Ideal S64x64 .f32)
    (x5 x6 : Vec Ideal S1x64 .f32) (p : Fin 5000) (q : Fin 64) :
    k0_pay1 (F := Ideal) x0 x1 x2 x3 x4 x5 x6 (ix2 p q)
      = rowLayer (fun k => x0 (ix2 p k)) (fun k => x1 (ix2 p k)) (x2 (ix2 p (0 : Fin 1))) x3 x4
          (fun k => x5 (ix2 (0 : Fin 1) k)) (fun k => x6 (ix2 (0 : Fin 1) k)) q := by
  unfold k0_pay1 rowLayer
  dsimp only
  simp only [shapeCast_self]
  refine norm_apply _ _ p (fun k => ?_) _ _ _ _ _ q
  refine (lin_apply _ rfl rfl rfl rfl rfl rfl _ _ _ _ _ _ _ p k).trans ?_
  unfold rowLin
  simp only [truncf_apply, meanOf_apply]
  rfl

/-- The second body's layer part at (p, q): the same layer on row p of the block. -/
theorem layerPay1_apply (x0 x1 : Vec Ideal S5000x64 .f32) (x2 : Vec Ideal S5000x1 .f32) (x3 x4 : Vec Ideal S64x64 .f32)
    (x5 x6 : Vec Ideal S1x64 .f32) (p : Fin 5000) (q : Fin 64) :
    k1_pay2 (F := Ideal) x0 x1 x2 x3 x4 x5 x6 (ix2 p q)
      = rowLayer (fun k => x0 (ix2 p k)) (fun k => x1 (ix2 p k)) (x2 (ix2 p (0 : Fin 1))) x3 x4
          (fun k => x5 (ix2 (0 : Fin 1) k)) (fun k => x6 (ix2 (0 : Fin 1) k)) q := by
  unfold k1_pay2 rowLayer
  dsimp only
  simp only [shapeCast_self]
  refine norm_apply _ _ p (fun k => ?_) _ _ _ _ _ q
  refine (lin_apply _ rfl rfl rfl rfl rfl rfl _ _ _ _ _ _ _ p k).trans ?_
  unfold rowLin
  simp only [truncf_apply, meanOf_apply]
  rfl

/-- The second body's head at (p, q), from what its operand holds on row p. -/
theorem postPay_apply (h : FVec Ideal S5000x64 .f32) (w1 : Vec Ideal S64x64 .f32) (b1 : Vec Ideal S1x64 .f32)
    (w2 : Vec Ideal S64x64 .f32) (b2 : Vec Ideal S1x64 .f32) (hr : Fin 64 → EReal) (p : Fin 5000)
    (hh : ∀ k : Fin 64, h (ix2 p k) = hr k) (q : Fin 64) :
    k1_pay1 (F := Ideal) h w1 b1 w2 b2 (ix2 p q)
      = rowPost hr w1 (fun k => b1 (ix2 (0 : Fin 1) k)) w2 (fun k => b2 (ix2 (0 : Fin 1) k)) q := by
  unfold k1_pay1 rowPost
  simp only [shapeCast_self]
  refine (aff_apply _ rfl rfl rfl rfl rfl rfl _ _ _ _ p q).trans ?_
  unfold rowAff
  refine congrArg₂ (· + ·) (Finset.sum_congr rfl fun k _ => congrArg₂ (· * ·) ?_ rfl) rfl
  rw [truncf_apply]
  refine (aff_apply _ rfl rfl rfl rfl rfl rfl _ _ _ _ p k).trans ?_
  simp only [truncf_apply, hh]

end Cert.KernelIdeal.Hand

end
-- ==== Proof.Blocks0.lean ====
/-
  The first kernel region, from blocks to the table: what grid point t writes back is rows 5000 t … 5000 t + 4999 of
  ONE table, the layer (`Cert.Sage.layer`) of the arrays the region finds when it is entered; the twenty blocks tile the
  100000 rows, so after the region the result array holds that table. Stated at any entry contents `V`.
-/
import proofs.«131663_j33887291966072_2_alg».proof.Proof.Gen.KernelIdeal.Frame
import proofs.«131663_j33887291966072_2_alg».proof.Proof.Body
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The table the first region leaves, as a function of the arrays it finds. -/
def table0 (c : Dev nD) : S100000x64.Idx → EReal :=
  layer (V c main_arg0 : S100000x64.Idx → EReal) (V c main_v17 : S100000x64.Idx → EReal)
    (V c main_v7 : S100000x1.Idx → EReal) (V c main_v18 : S64x64.Idx → EReal) (V c main_v19 : S64x64.Idx → EReal)
    (fun k => (V c main_v20 : S1x64.Idx → EReal) (ix2 (0 : Fin 1) k))
    (fun k => (V c main_v21 : S1x64.Idx → EReal) (ix2 (0 : Fin 1) k))

/-- The printed index maps over the grid: the row-blocked windows move with the point, the others stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- WHAT POINT t WRITES BACK is block t of the table. -/
theorem flushed0_eq (c : Dev nD) (t : Fin cfg0.N) :
    (dat0 V c).flushed 7 t = ((cfg0.win 7).blk t).view.read (Elt Ideal) (table0 V c) := by
  show (cfg0.win 7).cut (grid0.coords t) ((dat0 V c).after 7 t) = _
  rw [after0_7]
  unfold out0_7
  rw [View.canon_unit_zero hz]
  simp only [View.ld_unit_zero (S := S5000x64) hz, View.ld_unit_zero (S := S5000x1) hz,
    View.ld_unit_zero (S := S64x64) hz, View.ld_unit_zero (S := S1x64) hz]
  obtain ⟨e00, e01, e10, e11, e20, e21, e30, e31, e40, e41, e50, e51, e60, e61, e70, e71⟩ := idx0 t
  have ht : t.val < 20 := lt_of_lt_of_eq t.isLt N_0
  funext j
  obtain ⟨p, q, rfl⟩ : ∃ (p : Fin 5000) (q : Fin 64), j = ix2 p q := ⟨j 0, j 1, eq_ix2 j⟩
  have hp : p.val < 5000 := p.isLt
  have hq : q.val < 64 := q.isLt
  let P : Fin 100000 := ⟨t.val * 5000 + p.val, by omega⟩
  have hE : ((cfg0.win 7).blk t).view.emb (ix2 p q) = (ix2 P q : S100000x64.Idx) := by
    funext a; apply Fin.ext
    match a with
    | ⟨0, _⟩ => show win0_7.index t (0 : Fin 2) * 5000 + 1 * p.val = t.val * 5000 + p.val; omega
    | ⟨1, _⟩ => show win0_7.index t (1 : Fin 2) * 64 + 1 * q.val = q.val; omega
  show k0_pay1 (F := Ideal) (iblk0 V c 0 t) (iblk0 V c 1 t) (iblk0 V c 2 t) (iblk0 V c 3 t) (iblk0 V c 4 t)
      (iblk0 V c 5 t) (iblk0 V c 6 t) (ix2 p q) = table0 V c (((cfg0.win 7).blk t).view.emb (ix2 p q))
  rw [hE]
  refine (layerPay0_apply (iblk0 V c 0 t) (iblk0 V c 1 t) (iblk0 V c 2 t) (iblk0 V c 3 t) (iblk0 V c 4 t)
      (iblk0 V c 5 t) (iblk0 V c 6 t) p q).trans ?_
  have h0 : ∀ k : Fin 64, (iblk0 V c 0 t : Vec Ideal S5000x64 .f32) (ix2 p k)
      = (V c main_arg0 : S100000x64.Idx → EReal) (ix2 P k) := fun k => by
    have hk : k.val < 64 := k.isLt
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have h1 : ∀ k : Fin 64, (iblk0 V c 1 t : Vec Ideal S5000x64 .f32) (ix2 p k)
      = (V c main_v17 : S100000x64.Idx → EReal) (ix2 P k) := fun k => by
    have hk : k.val < 64 := k.isLt
    show V c main_v17 (((cfg0.win 1).blk t).view.emb (ix2 p k)) = _
    refine congrArg (V c main_v17) (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  have h2 : (iblk0 V c 2 t : Vec Ideal S5000x1 .f32) (ix2 p (0 : Fin 1))
      = (V c main_v7 : S100000x1.Idx → EReal) (ix2 P (0 : Fin 1)) := by
    show V c main_v7 (((cfg0.win 2).blk t).view.emb (ix2 p (0 : Fin 1))) = _
    refine congrArg (V c main_v7) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  have h3 : (iblk0 V c 3 t : Vec Ideal S64x64 .f32) = (V c main_v18 : S64x64.Idx → EReal) := funext fun y => by
    show V c main_v18 (((cfg0.win 3).blk t).view.emb y) = _
    refine congrArg (V c main_v18) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  have h4 : (iblk0 V c 4 t : Vec Ideal S64x64 .f32) = (V c main_v19 : S64x64.Idx → EReal) := funext fun y => by
    show V c main_v19 (((cfg0.win 4).blk t).view.emb y) = _
    refine congrArg (V c main_v19) (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  have h5 : (iblk0 V c 5 t : Vec Ideal S1x64 .f32) = (V c main_v20 : S1x64.Idx → EReal) := funext fun y => by
    show V c main_v20 (((cfg0.win 5).blk t).view.emb y) = _
    refine congrArg (V c main_v20) (funext fun a => Fin.ext ?_)
    match a with
    | ⟨0, _⟩ => show win0_5.index t (0 : Fin 2) * 1 + 1 * (y 0).val = (y 0).val; omega
    | ⟨1, _⟩ => show win0_5.index t (1 : Fin 2) * 64 + 1 * (y 1).val = (y 1).val; omega
  have h6 : (iblk0 V c 6 t : Vec Ideal S1x64 .f32) = (V c main_v21 : S1x64.Idx → EReal) := funext fun y => by
    show V c main_v21 (((cfg0.win 6).blk t).view.emb y) = _
    refine congrArg (V c main_v21) (funext fun a => Fin.ext ?_)
    match a with
    | ⟨0, _⟩ => show win0_6.index t (0 : Fin 2) * 1 + 1 * (y 0).val = (y 0).val; omega
    | ⟨1, _⟩ => show win0_6.index t (1 : Fin 2) * 64 + 1 * (y 1).val = (y 1).val; omega
  rw [funext h0, funext h1, h2, h3, h4, h5, h6]
  rfl

/-- An index of the result array is in point t's block iff each coordinate is in the block's range on its axis. -/
theorem mem_blk0 (t : Fin cfg0.N) (i : S100000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v22).slice (win0_7.rect t)).set ↔ _
  rw [View.set_slice_whole, Rect.mem_set_unit]
  exact Iff.rfl

/-- Row r of the table is in the block of point r / 5000. -/
theorem cover0 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨e00, e01, e10, e11, e20, e21, e30, e31, e40, e41, e50, e51, e60, e61, e70, e71⟩ :=
    idx0 ⟨(i 0).val / 5000, hlt⟩
  refine ⟨⟨(i 0).val / 5000, hlt⟩, flush0_7 _, ?_⟩
  rw [mem_blk0]
  intro a
  match a with
  | ⟨0, _⟩ =>
    show win0_7.index ⟨(i 0).val / 5000, hlt⟩ (0 : Fin 2) * 5000 ≤ (i 0).val
      ∧ (i 0).val < win0_7.index ⟨(i 0).val / 5000, hlt⟩ (0 : Fin 2) * 5000 + 5000
    rw [e70]; show (i 0).val / 5000 * 5000 ≤ (i 0).val ∧ (i 0).val < (i 0).val / 5000 * 5000 + 5000; omega
  | ⟨1, _⟩ =>
    show win0_7.index ⟨(i 0).val / 5000, hlt⟩ (1 : Fin 2) * 64 ≤ (i 1).val
      ∧ (i 1).val < win0_7.index ⟨(i 0).val / 5000, hlt⟩ (1 : Fin 2) * 64 + 64
    rw [e71]; omega

/-- After the region its result array holds the table. -/
theorem final0 (c : Dev nD) : (dat0 V c).arrAt 7 cfg0.N = table0 V c :=
  (dat0 V c).arrAt_eq_of_cover 7 (table0 V c) (fun t _ => flushed0_eq V c t) cover0

end Cert.KernelIdeal.Hand

end
-- ==== Proof.KHost.lean ====
/-
  What the two kernel regions find in their operand arrays, as functions of the launch memory. Before the first
  region the host has split the edge list into its source and target rows, counted each node's incoming edges
  (a scatter-add of ones), summed the feature rows of each node's in-neighbours (a gather of rows at the sources, then
  a scatter-add at the targets: `nbrSum`), transposed two weight tables and laid two bias vectors as rows. Between
  the regions it does the same gather-and-sum on the FIRST region's result table, and prepares the other weights.
  The gather-and-sum and the degree count are carried as two named functions and never opened.
-/
import proofs.«131663_j33887291966072_2_alg».proof.Proof.Gen.KernelIdeal.Frame
import proofs.«131663_j33887291966072_2_alg».proof.Proof.Blocks0
import Idealize.ShloMosaic.Lib.StableHlo.Run

set_option maxRecDepth 16384
set_option maxHeartbeats 1000000

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Sage
open Idealize.ShloMosaic.Pipeline (Dat)

/-- The edge list, a node table, a node column. -/
abbrev Edges : Type := (⟨S2x1600000, .i32⟩ : BufTy).Contents (Elt Ideal)
abbrev Tbl : Type := (⟨S100000x64, .f32⟩ : BufTy).Contents (Elt Ideal)
abbrev Col : Type := (⟨S100000x1, .f32⟩ : BufTy).Contents (Elt Ideal)

/-- Row 0 of the edge list: each edge's source node. -/
def srcOf (e : Edges) : (⟨S1600000, .i32⟩ : BufTy).Contents (Elt Ideal) :=
  shapeCast S1600000 (extractStridedSlice S1x1600000 ![0, 0] e slices_S2x1600000_S1x1600000_0_0) shapeCasts_S1x1600000_S1600000
/-- Row 1 of the edge list: each edge's target node. -/
def dstOf (e : Edges) : (⟨S1600000, .i32⟩ : BufTy).Contents (Elt Ideal) :=
  shapeCast S1600000 (extractStridedSlice S1x1600000 ![1, 0] e slices_S2x1600000_S1x1600000_1_0) shapeCasts_S1x1600000_S1600000

/-- For every node, the sum of the rows of `h` at the sources of its incoming edges (a negative source counted from
    the end, as array indexing does). -/
def nbrSum (e : Edges) (h : Tbl) : Tbl :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dstOf e))
    (Host.gather gather_S100000x64_S1600000x1_S1600000x64_1_0_n_n_0_1_164 h
      (broadcastInDim S1600000x1 ![0] bcast_S1600000_S1600000x1_0
        (select (cmpi .slt (srcOf e) (broadcastInDim S1600000 ![] bcast_S_S1600000 (constantI S_ 32 0#32)))
          (addi (srcOf e) (broadcastInDim S1600000 ![] bcast_S_S1600000 (constantI S_ 32 100000#32))) (srcOf e))))

/-- For every node, the number of its incoming edges. -/
def degree (e : Edges) : Col :=
  Host.scatterAdd (F := Ideal) scatter_S100000x1_S1600000x1_S1600000x1_1_0_0_1
    (broadcastInDim S100000x1 ![] bcast_S_S100000x1 (constant (F := Ideal) S_ .f32 0x00000000#32))
    (broadcastInDim S1600000x1 ![0] bcast_S1600000_S1600000x1_0 (dstOf e))
    (broadcastInDim S1600000x1 ![] bcast_S_S1600000x1 (constant (F := Ideal) S_ .f32 0x3F800000#32))

variable (m : (ℓ : Loc nD τ sig) → Buf (Elt Ideal) ℓ) (ρ : Dev nD → PrngReg)

/-! ## What the first region finds -/

theorem V1_arg0 (c : Dev nD) : (V1 m ρ c main_arg0 : S100000x64.Idx → EReal) = m ((c : Thread nD τ).loc main_arg0) := by
  show StableHlo.after hostOps0 (W0 m ρ c) (Proc.devRef .tc main_arg0) = _
  after_results_simp
  try rfl
theorem V1_v17 (c : Dev nD) : (V1 m ρ c main_v17 : S100000x64.Idx → EReal) = nbrSum (m ((c : Thread nD τ).loc main_arg1)) (m ((c : Thread nD τ).loc main_arg0)) := by
  show StableHlo.after hostOps0 (W0 m ρ c) (Proc.devRef .tc main_v17) = _
  after_results_simp
  try rfl
theorem V1_v7 (c : Dev nD) : (V1 m ρ c main_v7 : S100000x1.Idx → EReal) = degree (m ((c : Thread nD τ).loc main_arg1)) := by
  show StableHlo.after hostOps0 (W0 m ρ c) (Proc.devRef .tc main_v7) = _
  after_results_simp
  try rfl
theorem V1_v18 (c : Dev nD) : (V1 m ρ c main_v18 : S64x64.Idx → EReal) = transpose S64x64 [1, 0] (m ((c : Thread nD τ).loc main_arg2)) transposes_S64x64_S64x64_1_0 := by
  show StableHlo.after hostOps0 (W0 m ρ c) (Proc.devRef .tc main_v18) = _
  after_results_simp
  try rfl
theorem V1_v19 (c : Dev nD) : (V1 m ρ c main_v19 : S64x64.Idx → EReal) = transpose S64x64 [1, 0] (m ((c : Thread nD τ).loc main_arg4)) transposes_S64x64_S64x64_1_0 := by
  show StableHlo.after hostOps0 (W0 m ρ c) (Proc.devRef .tc main_v19) = _
  after_results_simp
  try rfl
theorem V1_v20 (c : Dev nD) : (V1 m ρ c main_v20 : S1x64.Idx → EReal) = shapeCast S1x64 (m ((c : Thread nD τ).loc main_arg3)) shapeCasts_S64_S1x64 := by
  show StableHlo.after hostOps0 (W0 m ρ c) (Proc.devRef .tc main_v20) = _
  after_results_simp
  try rfl
theorem V1_v21 (c : Dev nD) : (V1 m ρ c main_v21 : S1x64.Idx → EReal) = shapeCast S1x64 (m ((c : Thread nD τ).loc main_arg5)) shapeCasts_S64_S1x64 := by
  show StableHlo.after hostOps0 (W0 m ρ c) (Proc.devRef .tc main_v21) = _
  after_results_simp
  try rfl
theorem V1_v1 (c : Dev nD) : (V1 m ρ c main_v1 : S1600000.Idx → Elt Ideal .i32) = srcOf (m ((c : Thread nD τ).loc main_arg1)) := by
  show StableHlo.after hostOps0 (W0 m ρ c) (Proc.devRef .tc main_v1) = _
  after_results_simp
  try rfl
theorem V1_v3 (c : Dev nD) : (V1 m ρ c main_v3 : S1600000.Idx → Elt Ideal .i32) = dstOf (m ((c : Thread nD τ).loc main_arg1)) := by
  show StableHlo.after hostOps0 (W0 m ρ c) (Proc.devRef .tc main_v3) = _
  after_results_simp
  try rfl
theorem V1_arg6 (c : Dev nD) : (V1 m ρ c main_arg6 : S64x64.Idx → EReal) = m ((c : Thread nD τ).loc main_arg6) := by
  show StableHlo.after hostOps0 (W0 m ρ c) (Proc.devRef .tc main_arg6) = _
  after_results_simp
  try rfl
theorem V1_arg8 (c : Dev nD) : (V1 m ρ c main_arg8 : S64x64.Idx → EReal) = m ((c : Thread nD τ).loc main_arg8) := by
  show StableHlo.after hostOps0 (W0 m ρ c) (Proc.devRef .tc main_arg8) = _
  after_results_simp
  try rfl
theorem V1_arg10 (c : Dev nD) : (V1 m ρ c main_arg10 : S64x64.Idx → EReal) = m ((c : Thread nD τ).loc main_arg10) := by
  show StableHlo.after hostOps0 (W0 m ρ c) (Proc.devRef .tc main_arg10) = _
  after_results_simp
  try rfl
theorem V1_arg12 (c : Dev nD) : (V1 m ρ c main_arg12 : S64x64.Idx → EReal) = m ((c : Thread nD τ).loc main_arg12) := by
  show StableHlo.after hostOps0 (W0 m ρ c) (Proc.devRef .tc main_arg12) = _
  after_results_simp
  try rfl
theorem V1_arg7 (c : Dev nD) : (V1 m ρ c main_arg7 : S64.Idx → EReal) = m ((c : Thread nD τ).loc main_arg7) := by
  show StableHlo.after hostOps0 (W0 m ρ c) (Proc.devRef .tc main_arg7) = _
  after_results_simp
  try rfl
theorem V1_arg9 (c : Dev nD) : (V1 m ρ c main_arg9 : S64.Idx → EReal) = m ((c : Thread nD τ).loc main_arg9) := by
  show StableHlo.after hostOps0 (W0 m ρ c) (Proc.devRef .tc main_arg9) = _
  after_results_simp
  try rfl
theorem V1_arg11 (c : Dev nD) : (V1 m ρ c main_arg11 : S64.Idx → EReal) = m ((c : Thread nD τ).loc main_arg11) := by
  show StableHlo.after hostOps0 (W0 m ρ c) (Proc.devRef .tc main_arg11) = _
  after_results_simp
  try rfl
theorem V1_arg13 (c : Dev nD) : (V1 m ρ c main_arg13 : S64.Idx → EReal) = m ((c : Thread nD τ).loc main_arg13) := by
  show StableHlo.after hostOps0 (W0 m ρ c) (Proc.devRef .tc main_arg13) = _
  after_results_simp
  try rfl

/-! ## What the second region finds -/

/-- The first region leaves a buffer that is none of its arrays as it found it. -/
theorem W2_keep (c : Dev nD) (b : Ref sig .tc) (hb : ∀ w, Pipeline.arrRef spec0 w ≠ b) :
    W2 m ρ c (Proc.devRef .tc b) = V1 m ρ c b := W2_of_ne m ρ c b hb

/-- The first region's result table, as the second region finds it. -/
def h1 (c : Dev nD) : Tbl := table0 (V1 m ρ) c

theorem V3_v22 (c : Dev nD) : (V3 m ρ c main_v22 : S100000x64.Idx → EReal) = h1 m ρ c := by
  show StableHlo.after hostOps1 (W2 m ρ c) (Proc.devRef .tc main_v22) = _
  after_results_simp
  exact (W2_arr m ρ c 7).trans (final0 (V1 m ρ) c)
theorem V3_v32 (c : Dev nD) : (V3 m ρ c main_v32 : S100000x64.Idx → EReal) = nbrSum (m ((c : Thread nD τ).loc main_arg1)) (h1 m ρ c) := by
  show StableHlo.after hostOps1 (W2 m ρ c) (Proc.devRef .tc main_v32) = _
  after_results_simp
  rw [W2_keep m ρ c main_v3 (by decide), W2_keep m ρ c main_v1 (by decide), V1_v3, V1_v1,
    show W2 m ρ c (Proc.devRef .tc main_v22) = h1 m ρ c from (W2_arr m ρ c 7).trans (final0 (V1 m ρ) c)]
  rfl
theorem V3_v7 (c : Dev nD) : (V3 m ρ c main_v7 : S100000x1.Idx → EReal) = degree (m ((c : Thread nD τ).loc main_arg1)) := by
  show StableHlo.after hostOps1 (W2 m ρ c) (Proc.devRef .tc main_v7) = _
  after_results_simp
  exact ((W2_arr m ρ c 2).trans (((dat0 (V1 m ρ) c).arrAt_in 2 rfl _).trans (A_eq0 (V1 m ρ) c 2))).trans (V1_v7 m ρ c)
theorem V3_v33 (c : Dev nD) : (V3 m ρ c main_v33 : S64x64.Idx → EReal) = transpose S64x64 [1, 0] (m ((c : Thread nD τ).loc main_arg6)) transposes_S64x64_S64x64_1_0 := by
  show StableHlo.after hostOps1 (W2 m ρ c) (Proc.devRef .tc main_v33) = _
  after_results_simp
  rw [W2_keep m ρ c main_arg6 (by decide), V1_arg6]
  try rfl
theorem V3_v34 (c : Dev nD) : (V3 m ρ c main_v34 : S64x64.Idx → EReal) = transpose S64x64 [1, 0] (m ((c : Thread nD τ).loc main_arg8)) transposes_S64x64_S64x64_1_0 := by
  show StableHlo.after hostOps1 (W2 m ρ c) (Proc.devRef .tc main_v34) = _
  after_results_simp
  rw [W2_keep m ρ c main_arg8 (by decide), V1_arg8]
  try rfl
theorem V3_v35 (c : Dev nD) : (V3 m ρ c main_v35 : S64x64.Idx → EReal) = transpose S64x64 [1, 0] (m ((c : Thread nD τ).loc main_arg10)) transposes_S64x64_S64x64_1_0 := by
  show StableHlo.after hostOps1 (W2 m ρ c) (Proc.devRef .tc main_v35) = _
  after_results_simp
  rw [W2_keep m ρ c main_arg10 (by decide), V1_arg10]
  try rfl
theorem V3_v36 (c : Dev nD) : (V3 m ρ c main_v36 : S64x64.Idx → EReal) = transpose S64x64 [1, 0] (m ((c : Thread nD τ).loc main_arg12)) transposes_S64x64_S64x64_1_0 := by
  show StableHlo.after hostOps1 (W2 m ρ c) (Proc.devRef .tc main_v36) = _
  after_results_simp
  rw [W2_keep m ρ c main_arg12 (by decide), V1_arg12]
  try rfl
theorem V3_v37 (c : Dev nD) : (V3 m ρ c main_v37 : S1x64.Idx → EReal) = shapeCast S1x64 (m ((c : Thread nD τ).loc main_arg7)) shapeCasts_S64_S1x64 := by
  show StableHlo.after hostOps1 (W2 m ρ c) (Proc.devRef .tc main_v37) = _
  after_results_simp
  rw [W2_keep m ρ c main_arg7 (by decide), V1_arg7]
  try rfl
theorem V3_v38 (c : Dev nD) : (V3 m ρ c main_v38 : S1x64.Idx → EReal) = shapeCast S1x64 (m ((c : Thread nD τ).loc main_arg9)) shapeCasts_S64_S1x64 := by
  show StableHlo.after hostOps1 (W2 m ρ c) (Proc.devRef .tc main_v38) = _
  after_results_simp
  rw [W2_keep m ρ c main_arg9 (by decide), V1_arg9]
  try rfl
theorem V3_v39 (c : Dev nD) : (V3 m ρ c main_v39 : S1x64.Idx → EReal) = shapeCast S1x64 (m ((c : Thread nD τ).loc main_arg11)) shapeCasts_S64_S1x64 := by
  show StableHlo.after hostOps1 (W2 m ρ c) (Proc.devRef .tc main_v39) = _
  after_results_simp
  rw [W2_keep m ρ c main_arg11 (by decide), V1_arg11]
  try rfl
theorem V3_v40 (c : Dev nD) : (V3 m ρ c main_v40 : S1x64.Idx → EReal) = shapeCast S1x64 (m ((c : Thread nD τ).loc main_arg13)) shapeCasts_S64_S1x64 := by
  show StableHlo.after hostOps1 (W2 m ρ c) (Proc.devRef .tc main_v40) = _
  after_results_simp
  rw [W2_keep m ρ c main_arg13 (by decide), V1_arg13]
  try rfl

end Cert.KernelIdeal.Hand

end
-- ==== Proof.Blocks1.lean ====
/-
  The second kernel region, from blocks to the table: what grid point t writes back is rows 5000 t … 5000 t + 4999 of
  ONE table, the head (`Cert.Sage.post`) of the layer (`Cert.Sage.layer`) of the arrays the region finds when it is
  entered; the twenty blocks tile the 100000 rows, so after the region the result array holds that table. Stated at
  any entry contents `V`.
-/
import proofs.«131663_j33887291966072_2_alg».proof.Proof.Gen.KernelIdeal.Frame
import proofs.«131663_j33887291966072_2_alg».proof.Proof.Body
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz' : (![0, 0] : Fin 2 → Nat) = fun _ => 0 := funext fun a => by fin_cases a <;> rfl

/-- The table the second region leaves, as a function of the arrays it finds. -/
def table1 (c : Dev nD) : S100000x64.Idx → EReal :=
  post (layer (V c main_v22 : S100000x64.Idx → EReal) (V c main_v32 : S100000x64.Idx → EReal)
      (V c main_v7 : S100000x1.Idx → EReal) (V c main_v33 : S64x64.Idx → EReal) (V c main_v34 : S64x64.Idx → EReal)
      (fun k => (V c main_v37 : S1x64.Idx → EReal) (ix2 (0 : Fin 1) k))
      (fun k => (V c main_v38 : S1x64.Idx → EReal) (ix2 (0 : Fin 1) k)))
    (V c main_v35 : S64x64.Idx → EReal) (fun k => (V c main_v39 : S1x64.Idx → EReal) (ix2 (0 : Fin 1) k))
    (V c main_v36 : S64x64.Idx → EReal) (fun k => (V c main_v40 : S1x64.Idx → EReal) (ix2 (0 : Fin 1) k))

/-- The printed index maps over the grid: the row-blocked windows move with the point, the others stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0 :=
  (by decide +kernel : ∀ t : Fin grid1.N, _)

/-- Window 0's block at point t is rows 5000 t … of its array. -/
theorem blk1_0 (c : Dev nD) (t : Fin cfg1.N) (p : Fin 5000) (k : Fin 64) (P : Fin 100000)
    (hP : P.val = t.val * 5000 + p.val) :
    (iblk1 V c 0 t : Vec Ideal S5000x64 .f32) (ix2 p k) = (V c main_v22 : S100000x64.Idx → EReal) (ix2 P k) := by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  have hk : k.val < 64 := k.isLt
  show V c main_v22 (((cfg1.win 0).blk t).view.emb (ix2 p k)) = _
  refine congrArg (V c main_v22) (funext fun a => Fin.ext ?_)
  match a with
  | ⟨0, _⟩ => show win1_0.index t (0 : Fin 2) * 5000 + 1 * p.val = P.val; omega
  | ⟨1, _⟩ => show win1_0.index t (1 : Fin 2) * 64 + 1 * k.val = k.val; omega

/-- Window 1's block at point t is rows 5000 t … of its array. -/
theorem blk1_1 (c : Dev nD) (t : Fin cfg1.N) (p : Fin 5000) (k : Fin 64) (P : Fin 100000)
    (hP : P.val = t.val * 5000 + p.val) :
    (iblk1 V c 1 t : Vec Ideal S5000x64 .f32) (ix2 p k) = (V c main_v32 : S100000x64.Idx → EReal) (ix2 P k) := by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  have hk : k.val < 64 := k.isLt
  show V c main_v32 (((cfg1.win 1).blk t).view.emb (ix2 p k)) = _
  refine congrArg (V c main_v32) (funext fun a => Fin.ext ?_)
  match a with
  | ⟨0, _⟩ => show win1_1.index t (0 : Fin 2) * 5000 + 1 * p.val = P.val; omega
  | ⟨1, _⟩ => show win1_1.index t (1 : Fin 2) * 64 + 1 * k.val = k.val; omega

/-- Window 2's block at point t is rows 5000 t … of its one-column array. -/
theorem blk1_2 (c : Dev nD) (t : Fin cfg1.N) (p : Fin 5000) (P : Fin 100000)
    (hP : P.val = t.val * 5000 + p.val) :
    (iblk1 V c 2 t : Vec Ideal S5000x1 .f32) (ix2 p (0 : Fin 1))
      = (V c main_v7 : S100000x1.Idx → EReal) (ix2 P (0 : Fin 1)) := by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  show V c main_v7 (((cfg1.win 2).blk t).view.emb (ix2 p (0 : Fin 1))) = _
  refine congrArg (V c main_v7) (funext fun a => Fin.ext ?_)
  match a with
  | ⟨0, _⟩ => show win1_2.index t (0 : Fin 2) * 5000 + 1 * p.val = P.val; omega
  | ⟨1, _⟩ => show win1_2.index t (1 : Fin 2) * 1 + 1 * 0 = 0; omega

/-- Window 3's one block is its whole array. -/
theorem blk1_3 (c : Dev nD) (t : Fin cfg1.N) :
    (iblk1 V c 3 t : Vec Ideal S64x64 .f32) = (V c main_v33 : S64x64.Idx → EReal) := funext fun y => by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  show V c main_v33 (((cfg1.win 3).blk t).view.emb y) = _
  refine congrArg (V c main_v33) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Window 4's one block is its whole array. -/
theorem blk1_4 (c : Dev nD) (t : Fin cfg1.N) :
    (iblk1 V c 4 t : Vec Ideal S64x64 .f32) = (V c main_v34 : S64x64.Idx → EReal) := funext fun y => by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  show V c main_v34 (((cfg1.win 4).blk t).view.emb y) = _
  refine congrArg (V c main_v34) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Window 5's one block is its whole array. -/
theorem blk1_5 (c : Dev nD) (t : Fin cfg1.N) :
    (iblk1 V c 5 t : Vec Ideal S1x64 .f32) = (V c main_v37 : S1x64.Idx → EReal) := funext fun y => by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  show V c main_v37 (((cfg1.win 5).blk t).view.emb y) = _
  refine congrArg (V c main_v37) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- Window 6's one block is its whole array. -/
theorem blk1_6 (c : Dev nD) (t : Fin cfg1.N) :
    (iblk1 V c 6 t : Vec Ideal S1x64 .f32) = (V c main_v38 : S1x64.Idx → EReal) := funext fun y => by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  show V c main_v38 (((cfg1.win 6).blk t).view.emb y) = _
  refine congrArg (V c main_v38) (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- Window 7's one block is its whole array. -/
theorem blk1_7 (c : Dev nD) (t : Fin cfg1.N) :
    (iblk1 V c 7 t : Vec Ideal S64x64 .f32) = (V c main_v35 : S64x64.Idx → EReal) := funext fun y => by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  show V c main_v35 (((cfg1.win 7).blk t).view.emb y) = _
  refine congrArg (V c main_v35) (funext fun a => Fin.ext ?_)
  match a with
  | ⟨0, _⟩ => show win1_7.index t (0 : Fin 2) * 64 + 1 * (y 0).val = (y 0).val; omega
  | ⟨1, _⟩ => show win1_7.index t (1 : Fin 2) * 64 + 1 * (y 1).val = (y 1).val; omega

/-- Window 8's one block is its whole array. -/
theorem blk1_8 (c : Dev nD) (t : Fin cfg1.N) :
    (iblk1 V c 8 t : Vec Ideal S1x64 .f32) = (V c main_v39 : S1x64.Idx → EReal) := funext fun y => by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  show V c main_v39 (((cfg1.win 8).blk t).view.emb y) = _
  refine congrArg (V c main_v39) (funext fun a => Fin.ext ?_)
  match a with
  | ⟨0, _⟩ => show win1_8.index t (0 : Fin 2) * 1 + 1 * (y 0).val = (y 0).val; omega
  | ⟨1, _⟩ => show win1_8.index t (1 : Fin 2) * 64 + 1 * (y 1).val = (y 1).val; omega

/-- Window 9's one block is its whole array. -/
theorem blk1_9 (c : Dev nD) (t : Fin cfg1.N) :
    (iblk1 V c 9 t : Vec Ideal S64x64 .f32) = (V c main_v36 : S64x64.Idx → EReal) := funext fun y => by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  show V c main_v36 (((cfg1.win 9).blk t).view.emb y) = _
  refine congrArg (V c main_v36) (funext fun a => Fin.ext ?_)
  match a with
  | ⟨0, _⟩ => show win1_9.index t (0 : Fin 2) * 64 + 1 * (y 0).val = (y 0).val; omega
  | ⟨1, _⟩ => show win1_9.index t (1 : Fin 2) * 64 + 1 * (y 1).val = (y 1).val; omega

/-- Window 10's one block is its whole array. -/
theorem blk1_10 (c : Dev nD) (t : Fin cfg1.N) :
    (iblk1 V c 10 t : Vec Ideal S1x64 .f32) = (V c main_v40 : S1x64.Idx → EReal) := funext fun y => by
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  show V c main_v40 (((cfg1.win 10).blk t).view.emb y) = _
  refine congrArg (V c main_v40) (funext fun a => Fin.ext ?_)
  match a with
  | ⟨0, _⟩ => show win1_10.index t (0 : Fin 2) * 1 + 1 * (y 0).val = (y 0).val; omega
  | ⟨1, _⟩ => show win1_10.index t (1 : Fin 2) * 64 + 1 * (y 1).val = (y 1).val; omega

/-- WHAT POINT t WRITES BACK is block t of the table. -/
theorem flushed1_eq (c : Dev nD) (t : Fin cfg1.N) :
    (dat1 V c).flushed 11 t = ((cfg1.win 11).blk t).view.read (Elt Ideal) (table1 V c) := by
  show (cfg1.win 11).cut (grid1.coords t) ((dat1 V c).after 11 t) = _
  rw [after1_11]
  unfold out1_11
  rw [View.canon_unit_zero hz']
  simp only [View.ld_unit_zero (S := S5000x64) hz', View.ld_unit_zero (S := S5000x1) hz',
    View.ld_unit_zero (S := S64x64) hz', View.ld_unit_zero (S := S1x64) hz']
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ := idx1 t
  have ht : t.val < 20 := lt_of_lt_of_eq t.isLt N_1
  funext j
  obtain ⟨p, q, rfl⟩ : ∃ (p : Fin 5000) (q : Fin 64), j = ix2 p q := ⟨j 0, j 1, eq_ix2 j⟩
  have hp : p.val < 5000 := p.isLt
  have hq : q.val < 64 := q.isLt
  let P : Fin 100000 := ⟨t.val * 5000 + p.val, by omega⟩
  have hE : ((cfg1.win 11).blk t).view.emb (ix2 p q) = (ix2 P q : S100000x64.Idx) := by
    funext a; apply Fin.ext
    match a with
    | ⟨0, _⟩ => show win1_11.index t (0 : Fin 2) * 5000 + 1 * p.val = t.val * 5000 + p.val; omega
    | ⟨1, _⟩ => show win1_11.index t (1 : Fin 2) * 64 + 1 * q.val = q.val; omega
  show k1_pay1 (F := Ideal) (k1_pay2 (iblk1 V c 0 t) (iblk1 V c 1 t) (iblk1 V c 2 t) (iblk1 V c 3 t) (iblk1 V c 4 t) (iblk1 V c 5 t) (iblk1 V c 6 t)) (iblk1 V c 7 t) (iblk1 V c 8 t) (iblk1 V c 9 t) (iblk1 V c 10 t) (ix2 p q)
      = table1 V c (((cfg1.win 11).blk t).view.emb (ix2 p q))
  rw [hE]
  refine (postPay_apply (k1_pay2 (iblk1 V c 0 t) (iblk1 V c 1 t) (iblk1 V c 2 t) (iblk1 V c 3 t) (iblk1 V c 4 t) (iblk1 V c 5 t) (iblk1 V c 6 t)) (iblk1 V c 7 t) (iblk1 V c 8 t) (iblk1 V c 9 t) (iblk1 V c 10 t) _ p
    (fun k => layerPay1_apply (iblk1 V c 0 t) (iblk1 V c 1 t) (iblk1 V c 2 t) (iblk1 V c 3 t) (iblk1 V c 4 t) (iblk1 V c 5 t) (iblk1 V c 6 t) p k) q).trans ?_
  rw [funext fun k => blk1_0 V c t p k P rfl, funext fun k => blk1_1 V c t p k P rfl, blk1_2 V c t p P rfl,
    blk1_3 V c t, blk1_4 V c t, blk1_5 V c t, blk1_6 V c t, blk1_7 V c t, blk1_8 V c t, blk1_9 V c t, blk1_10 V c t]
  rfl

/-- An index of the result array is in point t's block iff each coordinate is in the block's range on its axis. -/
theorem mem_blk1 (t : Fin cfg1.N) (i : S100000x64.Idx) :
    i ∈ ((cfg1.win 11).blk t).view.set ↔ ∀ a : Fin 2, win1_11.index t a * S5000x64.size a ≤ (i a).val
      ∧ (i a).val < win1_11.index t a * S5000x64.size a + S5000x64.size a := by
  show i ∈ ((View.whole main_v41).slice (win1_11.rect t)).set ↔ _
  rw [View.set_slice_whole, Rect.mem_set_unit]
  exact Iff.rfl

/-- Row r of the table is in the block of point r / 5000. -/
theorem cover1 (i : S100000x64.Idx) :
    ∃ t : Fin cfg1.N, (cfg1.win 11).flush t = true ∧ i ∈ ((cfg1.win 11).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨e0x0, e0x1, e1x0, e1x1, e2x0, e2x1, e3x0, e3x1, e4x0, e4x1, e5x0, e5x1, e6x0, e6x1, e7x0, e7x1, e8x0, e8x1, e9x0, e9x1, e10x0, e10x1, e11x0, e11x1⟩ :=
    idx1 ⟨(i 0).val / 5000, hlt⟩
  refine ⟨⟨(i 0).val / 5000, hlt⟩, flush1_11 _, ?_⟩
  rw [mem_blk1]
  intro a
  match a with
  | ⟨0, _⟩ =>
    show win1_11.index ⟨(i 0).val / 5000, hlt⟩ (0 : Fin 2) * 5000 ≤ (i 0).val
      ∧ (i 0).val < win1_11.index ⟨(i 0).val / 5000, hlt⟩ (0 : Fin 2) * 5000 + 5000
    rw [e11x0]; show (i 0).val / 5000 * 5000 ≤ (i 0).val ∧ (i 0).val < (i 0).val / 5000 * 5000 + 5000; omega
  | ⟨1, _⟩ =>
    show win1_11.index ⟨(i 0).val / 5000, hlt⟩ (1 : Fin 2) * 64 ≤ (i 1).val
      ∧ (i 1).val < win1_11.index ⟨(i 0).val / 5000, hlt⟩ (1 : Fin 2) * 64 + 64
    rw [e11x1]; omega

/-- After the region its result array holds the table. -/
theorem final1 (c : Dev nD) : (dat1 V c).arrAt 11 cfg1.N = table1 V c :=
  (dat1 V c).arrAt_eq_of_cover 11 (table1 V c) (fun t _ => flushed1_eq V c t) cover1

end Cert.KernelIdeal.Hand

end
-- ==== Proof.Total.lean ====
/-
  The whole network as one function of the node features, of the two graph operations it needs (the sum of a table's
  rows over each node's in-neighbours, `gs`, and the in-degree column, `cnt`) and of the twelve parameter arrays: a
  layer, a second layer on the first one's table (its neighbour sums taken of that table), then the head.
-/
import proofs.«131663_j33887291966072_2_alg».proof.Proof.Spec

noncomputable section

namespace Cert.Sage

open Idealize.ShloMosaic Idealize.ShloMosaic.ValueIdx

/-- Two layers and the head. -/
def total {n : Nat} (gs : ((⟨2, ![n, 64]⟩ : Shape).Idx → EReal) → (⟨2, ![n, 64]⟩ : Shape).Idx → EReal)
    (cnt : (⟨2, ![n, 1]⟩ : Shape).Idx → EReal) (x : (⟨2, ![n, 64]⟩ : Shape).Idx → EReal)
    (w2 w4 : W64) (b3 b5 : Fin 64 → EReal) (w6 w8 : W64) (b7 b9 : Fin 64 → EReal)
    (w10 : W64) (b11 : Fin 64 → EReal) (w12 : W64) (b13 : Fin 64 → EReal) : (⟨2, ![n, 64]⟩ : Shape).Idx → EReal :=
  post (layer (layer x (gs x) cnt w2 w4 b3 b5) (gs (layer x (gs x) cnt w2 w4 b3 b5)) cnt w6 w8 b7 b9) w10 b11 w12 b13

end Cert.Sage

end
-- ==== Proof.KValue.lean ====
/-
  The idealized kernel program's result: after both regions the result array holds `Cert.Sage.total` of the launch
  arrays — the second region's table (layer, then head) of what it finds, which is the first region's table and the
  host's neighbour sums of THAT table, the first region's table being the layer of the features and of their neighbour
  sums. A bias vector laid as a one-row matrix reads its entry k at (0, k).
-/
import proofs.«131663_j33887291966072_2_alg».proof.Proof.KRun
import proofs.«131663_j33887291966072_2_alg».proof.Proof.KHost
import proofs.«131663_j33887291966072_2_alg».proof.Proof.Blocks1
import proofs.«131663_j33887291966072_2_alg».proof.Proof.Total

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Sage

/-- A vector of b entries cast to the one-row matrix reads its entry k at (0, k). -/
theorem rowCast_apply {α : Type} {b : ℕ} (x : (⟨1, ![b]⟩ : Shape).Idx → α)
    (h : (⟨1, ![b]⟩ : Shape).ShapeCasts ⟨2, ![1, b]⟩) (u : Fin 1) (k : Fin b) :
    shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

variable (m : (ℓ : Loc nD τ sig) → Buf (Elt Ideal) ℓ) (ρ : Dev nD → PrngReg)

/-- The network of the launch arrays, in the kernel program's spelling of the graph operations and transposes. -/
def result (c : Dev nD) : S100000x64.Idx → EReal :=
  total (nbrSum (m ((c : Thread nD τ).loc main_arg1))) (degree (m ((c : Thread nD τ).loc main_arg1)))
    (m ((c : Thread nD τ).loc main_arg0) : S100000x64.Idx → EReal)
    (transpose S64x64 [1, 0] (m ((c : Thread nD τ).loc main_arg2) : S64x64.Idx → EReal) transposes_S64x64_S64x64_1_0)
    (transpose S64x64 [1, 0] (m ((c : Thread nD τ).loc main_arg4) : S64x64.Idx → EReal) transposes_S64x64_S64x64_1_0)
    (fun k => (m ((c : Thread nD τ).loc main_arg3) : S64.Idx → EReal) (ix1 k)) (fun k => (m ((c : Thread nD τ).loc main_arg5) : S64.Idx → EReal) (ix1 k))
    (transpose S64x64 [1, 0] (m ((c : Thread nD τ).loc main_arg6) : S64x64.Idx → EReal) transposes_S64x64_S64x64_1_0)
    (transpose S64x64 [1, 0] (m ((c : Thread nD τ).loc main_arg8) : S64x64.Idx → EReal) transposes_S64x64_S64x64_1_0)
    (fun k => (m ((c : Thread nD τ).loc main_arg7) : S64.Idx → EReal) (ix1 k)) (fun k => (m ((c : Thread nD τ).loc main_arg9) : S64.Idx → EReal) (ix1 k))
    (transpose S64x64 [1, 0] (m ((c : Thread nD τ).loc main_arg10) : S64x64.Idx → EReal) transposes_S64x64_S64x64_1_0)
    (fun k => (m ((c : Thread nD τ).loc main_arg11) : S64.Idx → EReal) (ix1 k))
    (transpose S64x64 [1, 0] (m ((c : Thread nD τ).loc main_arg12) : S64x64.Idx → EReal) transposes_S64x64_S64x64_1_0)
    (fun k => (m ((c : Thread nD τ).loc main_arg13) : S64.Idx → EReal) (ix1 k))

/-- The last segment boundary's contents at the result buffer. -/
theorem W4_result (c : Dev nD) : W4 m ρ c (Proc.devRef .tc main_v41) = result m c := by
  refine (W4_arr m ρ c 11).trans ((final1 (V3 m ρ) c).trans ?_)
  unfold table1
  rw [V3_v22, V3_v32, V3_v7, V3_v33, V3_v34, V3_v37, V3_v38, V3_v35, V3_v39, V3_v36, V3_v40]
  unfold h1 table0
  rw [V1_arg0, V1_v17, V1_v7, V1_v18, V1_v19, V1_v20, V1_v21]
  simp only [rowCast_apply]
  unfold result total
  rfl

/-- The run: the result buffer ends holding the network of the launch arrays, the arguments as launched. -/
theorem run_value : θ_run (defs (F := Ideal)) (onTc (τ := τ) (main (F := Ideal))) ⟨m, fun _ => 0, ρ⟩ (fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c => ⟨(h c).1.trans (W4_result m ρ c), (h c).2⟩) (run_named m ρ)

end Cert.KernelIdeal.Hand

end
-- ==== Proof.RefLayer1.lean ====
/-
  The reference's first layer, read entry by entry: its affine part and its normalise-and-clip at (p, q) are the row
  forms of `Cert.Sage`, over the reference's own gather-and-sum of neighbour rows and its degree column, which stay
  unopened.
-/
import proofs.«131663_j33887291966072_2_alg».proof.Proof.Gen.ReferenceIdeal.Read
import proofs.«131663_j33887291966072_2_alg».proof.Proof.Spec

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.TcCoe Idealize.ShloMosaic.ValueIdx Cert.Sage

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal))

/-- The mean operand of the first layer at (p, k): the neighbour sum over the clipped degree. -/
theorem mean1_apply (p : Fin 100000) (k : Fin 64) :
    val_main_v21 (F := Ideal) x0 x1 (ix2 p k)
      = Ideal.div (val_main_v13 (F := Ideal) x0 x1 (ix2 p k))
          (max (val_main_v17 (F := Ideal) x1 (ix2 p (0 : Fin 1))) (Ideal.ofBits .f32 0x3F800000#32)) := by
  rw [val_main_v21_apply, val_main_v20_apply, val_main_v19_apply, val_main_v18_apply, val_main_cst_3_apply]
  have e7 : idx_main_v20 (ix2 p k) = ix2 p (0 : Fin 1) := funext fun a => Fin.ext (by
    match a with | ⟨0, _⟩ => rfl | ⟨1, _⟩ => rfl)
  rw [e7]
  rfl

/-- The reference's first affine part at (p, q): the row form, over the neighbour sums and the degree column as the
    reference computes them. -/
theorem lin1_apply (p : Fin 100000) (q : Fin 64) :
    val_main_v32 (F := Ideal) x0 x1 x2 x3 x4 x5 (ix2 p q)
      = rowLin (fun k => x0 (ix2 p k)) (fun k => val_main_v13 (F := Ideal) x0 x1 (ix2 p k))
          (val_main_v17 (F := Ideal) x1 (ix2 p (0 : Fin 1))) (val_main_v22 (F := Ideal) x2) (val_main_v27 (F := Ideal) x4)
          (fun k => x3 (ix1 k)) (fun k => x5 (ix1 k)) q := by
  rw [val_main_v32_apply, val_main_v29_apply, val_main_v26_apply, val_main_v23_apply, val_main_v25_apply,
    val_main_v24_apply, val_main_v28_apply, val_main_v31_apply, val_main_v30_apply]
  have e1 : ∀ k : Fin 64, lidx_main_v23 (ix2 p q) k = ix2 p k := fun k => funext fun a => Fin.ext (by
    match a with | ⟨0, _⟩ => rfl | ⟨1, _⟩ => rfl)
  have e2 : ∀ k : Fin 64, ridx_main_v23 (ix2 p q) k = ix2 k q := fun k => funext fun a => Fin.ext (by
    match a with | ⟨0, _⟩ => rfl | ⟨1, _⟩ => rfl)
  have e3 : idx_main_v24 (idx_main_v25 (ix2 p q)) = ix1 q := funext fun a => Fin.ext (by
    match a with | ⟨0, _⟩ => rfl)
  have e4 : ∀ k : Fin 64, lidx_main_v28 (ix2 p q) k = ix2 p k := fun k => funext fun a => Fin.ext (by
    match a with | ⟨0, _⟩ => rfl | ⟨1, _⟩ => rfl)
  have e5 : ∀ k : Fin 64, ridx_main_v28 (ix2 p q) k = ix2 k q := fun k => funext fun a => Fin.ext (by
    match a with | ⟨0, _⟩ => rfl | ⟨1, _⟩ => rfl)
  have e6 : idx_main_v30 (idx_main_v31 (ix2 p q)) = ix1 q := funext fun a => Fin.ext (by
    match a with | ⟨0, _⟩ => rfl)
  rw [e3, e6]
  unfold rowLin
  refine congrArg₂ (· + ·) (congrArg₂ (· + ·) (congrArg₂ (· + ·) (Finset.sum_congr rfl fun k _ => ?_) rfl)
    (Finset.sum_congr rfl fun k _ => ?_)) rfl
  · rw [e1 k, e2 k]
  · rw [e4 k, e5 k, mean1_apply]

/-- The reference's first normalise-and-clip at (p, q), over the affine part's row p. -/
theorem norm1_apply (p : Fin 100000) (q : Fin 64) :
    val_main_v41 (F := Ideal) x0 x1 x2 x3 x4 x5 (ix2 p q)
      = rowNorm (fun k => val_main_v32 (F := Ideal) x0 x1 x2 x3 x4 x5 (ix2 p k)) q := by
  rw [val_main_v41_apply, val_main_v40_apply, val_main_v39_apply, val_main_v38_apply, val_main_v36_apply,
    val_main_v35_apply, val_main_v34_apply, val_main_v37_apply, val_main_cst_5_apply, val_main_cst_4_apply,
    val_main_call0_v0_apply, val_main_call0_cst_apply]
  have e : ∀ k : Fin 64, idx_main_v34 (idx_main_v35 (idx_main_v39 (ix2 p q))) k = ix2 p k := fun k =>
    funext fun a => Fin.ext (by match a with | ⟨0, _⟩ => rfl | ⟨1, _⟩ => rfl)
  have hs : (FloatOps.ofBits (F := Ideal) .f32 0x00000000#32
      + ∑ k : Fin 64, val_main_v33 (F := Ideal) x0 x1 x2 x3 x4 x5 (idx_main_v34 (idx_main_v35 (idx_main_v39 (ix2 p q))) k))
      = ∑ k : Fin 64, val_main_v32 (F := Ideal) x0 x1 x2 x3 x4 x5 (ix2 p k) * val_main_v32 (F := Ideal) x0 x1 x2 x3 x4 x5 (ix2 p k) := by
    refine (congrArg₂ (· + ·) Ideal.ofBits_zero_f32 (Finset.sum_congr rfl fun k _ => ?_)).trans (zero_add _)
    rw [val_main_v33_apply, e k]
    rfl
  rw [hs]
  rfl

/-- The reference's table after the first layer is the layer of the features, of its neighbour sums and of its
    degree column. -/
theorem layer1_eq :
    val_main_v41 (F := Ideal) x0 x1 x2 x3 x4 x5
      = layer x0 (val_main_v13 (F := Ideal) x0 x1) (val_main_v17 (F := Ideal) x1) (val_main_v22 (F := Ideal) x2)
          (val_main_v27 (F := Ideal) x4) (fun k => x3 (ix1 k)) (fun k => x5 (ix1 k)) := by
  funext i
  obtain ⟨p, q, rfl⟩ : ∃ (p : Fin 100000) (q : Fin 64), i = ix2 p q := ⟨i 0, i 1, eq_ix2 i⟩
  rw [norm1_apply]
  exact congrArg (fun r => rowNorm r q) (funext fun k => lin1_apply x0 x1 x2 x3 x4 x5 p k)

end Cert.ReferenceIdeal.Hand

end
-- ==== Proof.RefLayer2.lean ====
/-
  The reference's second layer and its head, read entry by entry: the same row forms as the first layer, now over
  the first layer's table and that table's neighbour sums; then two affine maps in a row.
-/
import proofs.«131663_j33887291966072_2_alg».proof.Proof.Gen.ReferenceIdeal.Read
import proofs.«131663_j33887291966072_2_alg».proof.Proof.Spec

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.TcCoe Idealize.ShloMosaic.ValueIdx Cert.Sage

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal))

/-- The mean operand of the second layer at (p, k): the neighbour sum over the clipped degree. -/
theorem mean2_apply (p : Fin 100000) (k : Fin 64) :
    val_main_v59 (F := Ideal) x0 x1 x2 x3 x4 x5 (ix2 p k)
      = Ideal.div (val_main_v51 (F := Ideal) x0 x1 x2 x3 x4 x5 (ix2 p k))
          (max (val_main_v55 (F := Ideal) x1 (ix2 p (0 : Fin 1))) (Ideal.ofBits .f32 0x3F800000#32)) := by
  rw [val_main_v59_apply, val_main_v58_apply, val_main_v57_apply, val_main_v56_apply, val_main_cst_11_apply]
  have e7 : idx_main_v58 (ix2 p k) = ix2 p (0 : Fin 1) := funext fun a => Fin.ext (by
    match a with | ⟨0, _⟩ => rfl | ⟨1, _⟩ => rfl)
  rw [e7]
  rfl

/-- The reference's second affine part at (p, q): the row form, over the neighbour sums and the degree column as the
    reference computes them. -/
theorem lin2_apply (p : Fin 100000) (q : Fin 64) :
    val_main_v70 (F := Ideal) x0 x1 x2 x3 x4 x5 x6 x7 x8 x9 (ix2 p q)
      = rowLin (fun k => val_main_v41 (F := Ideal) x0 x1 x2 x3 x4 x5 (ix2 p k)) (fun k => val_main_v51 (F := Ideal) x0 x1 x2 x3 x4 x5 (ix2 p k))
          (val_main_v55 (F := Ideal) x1 (ix2 p (0 : Fin 1))) (val_main_v60 (F := Ideal) x6) (val_main_v65 (F := Ideal) x8)
          (fun k => x7 (ix1 k)) (fun k => x9 (ix1 k)) q := by
  rw [val_main_v70_apply, val_main_v67_apply, val_main_v64_apply, val_main_v61_apply, val_main_v63_apply,
    val_main_v62_apply, val_main_v66_apply, val_main_v69_apply, val_main_v68_apply]
  have e1 : ∀ k : Fin 64, lidx_main_v61 (ix2 p q) k = ix2 p k := fun k => funext fun a => Fin.ext (by
    match a with | ⟨0, _⟩ => rfl | ⟨1, _⟩ => rfl)
  have e2 : ∀ k : Fin 64, ridx_main_v61 (ix2 p q) k = ix2 k q := fun k => funext fun a => Fin.ext (by
    match a with | ⟨0, _⟩ => rfl | ⟨1, _⟩ => rfl)
  have e3 : idx_main_v62 (idx_main_v63 (ix2 p q)) = ix1 q := funext fun a => Fin.ext (by
    match a with | ⟨0, _⟩ => rfl)
  have e4 : ∀ k : Fin 64, lidx_main_v66 (ix2 p q) k = ix2 p k := fun k => funext fun a => Fin.ext (by
    match a with | ⟨0, _⟩ => rfl | ⟨1, _⟩ => rfl)
  have e5 : ∀ k : Fin 64, ridx_main_v66 (ix2 p q) k = ix2 k q := fun k => funext fun a => Fin.ext (by
    match a with | ⟨0, _⟩ => rfl | ⟨1, _⟩ => rfl)
  have e6 : idx_main_v68 (idx_main_v69 (ix2 p q)) = ix1 q := funext fun a => Fin.ext (by
    match a with | ⟨0, _⟩ => rfl)
  rw [e3, e6]
  unfold rowLin
  refine congrArg₂ (· + ·) (congrArg₂ (· + ·) (congrArg₂ (· + ·) (Finset.sum_congr rfl fun k _ => ?_) rfl)
    (Finset.sum_congr rfl fun k _ => ?_)) rfl
  · rw [e1 k, e2 k]
  · rw [e4 k, e5 k, mean2_apply]

/-- The reference's second normalise-and-clip at (p, q), over the affine part's row p. -/
theorem norm2_apply (p : Fin 100000) (q : Fin 64) :
    val_main_v79 (F := Ideal) x0 x1 x2 x3 x4 x5 x6 x7 x8 x9 (ix2 p q)
      = rowNorm (fun k => val_main_v70 (F := Ideal) x0 x1 x2 x3 x4 x5 x6 x7 x8 x9 (ix2 p k)) q := by
  rw [val_main_v79_apply, val_main_v78_apply, val_main_v77_apply, val_main_v76_apply, val_main_v74_apply,
    val_main_v73_apply, val_main_v72_apply, val_main_v75_apply, val_main_cst_13_apply, val_main_cst_12_apply,
    val_main_call1_v0_apply, val_main_call1_cst_apply]
  have e : ∀ k : Fin 64, idx_main_v72 (idx_main_v73 (idx_main_v77 (ix2 p q))) k = ix2 p k := fun k =>
    funext fun a => Fin.ext (by match a with | ⟨0, _⟩ => rfl | ⟨1, _⟩ => rfl)
  have hs : (FloatOps.ofBits (F := Ideal) .f32 0x00000000#32
      + ∑ k : Fin 64, val_main_v71 (F := Ideal) x0 x1 x2 x3 x4 x5 x6 x7 x8 x9 (idx_main_v72 (idx_main_v73 (idx_main_v77 (ix2 p q))) k))
      = ∑ k : Fin 64, val_main_v70 (F := Ideal) x0 x1 x2 x3 x4 x5 x6 x7 x8 x9 (ix2 p k) * val_main_v70 (F := Ideal) x0 x1 x2 x3 x4 x5 x6 x7 x8 x9 (ix2 p k) := by
    refine (congrArg₂ (· + ·) Ideal.ofBits_zero_f32 (Finset.sum_congr rfl fun k _ => ?_)).trans (zero_add _)
    rw [val_main_v71_apply, e k]
    rfl
  rw [hs, Ideal.maximumf_def, Ideal.hostDivf_def, Ideal.maximumf_def, Ideal.hostUnary_sqrt_def]
  rfl

/-- The reference's table after the second layer is the layer of the first layer's table, of that table's neighbour
    sums and of the degree column. -/
theorem layer2_eq :
    val_main_v79 (F := Ideal) x0 x1 x2 x3 x4 x5 x6 x7 x8 x9
      = layer (val_main_v41 (F := Ideal) x0 x1 x2 x3 x4 x5) (val_main_v51 (F := Ideal) x0 x1 x2 x3 x4 x5)
          (val_main_v55 (F := Ideal) x1) (val_main_v60 (F := Ideal) x6) (val_main_v65 (F := Ideal) x8)
          (fun k => x7 (ix1 k)) (fun k => x9 (ix1 k)) := by
  funext i
  obtain ⟨p, q, rfl⟩ : ∃ (p : Fin 100000) (q : Fin 64), i = ix2 p q := ⟨i 0, i 1, eq_ix2 i⟩
  rw [norm2_apply]
  exact congrArg (fun r => rowNorm r q) (funext fun k => lin2_apply x0 x1 x2 x3 x4 x5 x6 x7 x8 x9 p k)

/-- The first affine map of the head at (p, k). -/
theorem head1_apply (p : Fin 100000) (k : Fin 64) :
    val_main_v84 (F := Ideal) x0 x1 x2 x3 x4 x5 x6 x7 x8 x9 x10 x11 (ix2 p k)
      = rowAff (fun j => val_main_v79 (F := Ideal) x0 x1 x2 x3 x4 x5 x6 x7 x8 x9 (ix2 p j)) (val_main_v80 (F := Ideal) x10)
          (fun j => x11 (ix1 j)) k := by
  rw [val_main_v84_apply, val_main_v81_apply, val_main_v83_apply, val_main_v82_apply]
  have e1 : ∀ j : Fin 64, lidx_main_v81 (ix2 p k) j = ix2 p j := fun j => funext fun a => Fin.ext (by
    match a with | ⟨0, _⟩ => rfl | ⟨1, _⟩ => rfl)
  have e2 : ∀ j : Fin 64, ridx_main_v81 (ix2 p k) j = ix2 j k := fun j => funext fun a => Fin.ext (by
    match a with | ⟨0, _⟩ => rfl | ⟨1, _⟩ => rfl)
  have e3 : idx_main_v82 (idx_main_v83 (ix2 p k)) = ix1 k := funext fun a => Fin.ext (by
    match a with | ⟨0, _⟩ => rfl)
  rw [e3]
  unfold rowAff
  refine congrArg₂ (· + ·) (Finset.sum_congr rfl fun j _ => ?_) rfl
  rw [e1 j, e2 j]

/-- The head at (p, q), over the second layer's row p. -/
theorem head_apply (p : Fin 100000) (q : Fin 64) :
    val_main_v89 (F := Ideal) x0 x1 x2 x3 x4 x5 x6 x7 x8 x9 x10 x11 x12 x13 (ix2 p q)
      = rowPost (fun j => val_main_v79 (F := Ideal) x0 x1 x2 x3 x4 x5 x6 x7 x8 x9 (ix2 p j)) (val_main_v80 (F := Ideal) x10)
          (fun j => x11 (ix1 j)) (val_main_v85 (F := Ideal) x12) (fun j => x13 (ix1 j)) q := by
  rw [val_main_v89_apply, val_main_v86_apply, val_main_v88_apply, val_main_v87_apply]
  have e1 : ∀ k : Fin 64, lidx_main_v86 (ix2 p q) k = ix2 p k := fun k => funext fun a => Fin.ext (by
    match a with | ⟨0, _⟩ => rfl | ⟨1, _⟩ => rfl)
  have e2 : ∀ k : Fin 64, ridx_main_v86 (ix2 p q) k = ix2 k q := fun k => funext fun a => Fin.ext (by
    match a with | ⟨0, _⟩ => rfl | ⟨1, _⟩ => rfl)
  have e3 : idx_main_v87 (idx_main_v88 (ix2 p q)) = ix1 q := funext fun a => Fin.ext (by
    match a with | ⟨0, _⟩ => rfl)
  rw [e3]
  unfold rowPost
  show _ = rowAff (rowAff _ _ _) _ _ q
  unfold rowAff
  refine congrArg₂ (· + ·) (Finset.sum_congr rfl fun k _ => ?_) rfl
  rw [e1 k, e2 k, head1_apply]
  rfl

/-- The reference's result table is the head of its second layer's table. -/
theorem head_eq :
    val_main_v89 (F := Ideal) x0 x1 x2 x3 x4 x5 x6 x7 x8 x9 x10 x11 x12 x13
      = post (val_main_v79 (F := Ideal) x0 x1 x2 x3 x4 x5 x6 x7 x8 x9) (val_main_v80 (F := Ideal) x10) (fun j => x11 (ix1 j))
          (val_main_v85 (F := Ideal) x12) (fun j => x13 (ix1 j)) := by
  funext i
  obtain ⟨p, q, rfl⟩ : ∃ (p : Fin 100000) (q : Fin 64), i = ix2 p q := ⟨i 0, i 1, eq_ix2 i⟩
  exact head_apply x0 x1 x2 x3 x4 x5 x6 x7 x8 x9 x10 x11 x12 x13 p q

end Cert.ReferenceIdeal.Hand

end
-- ==== Proof.RefTotal.lean ====
/-
  The reference as a whole: its result table is `Cert.Sage.total` of the features, of its own neighbour-sum operation
  (a gather of rows at the edges' sources, a scatter-add at their targets — the same operation in both layers, though
  the program spells its index arithmetic out twice) and of its degree column (likewise computed twice, once per layer).
-/
import proofs.«131663_j33887291966072_2_alg».proof.Proof.Gen.ReferenceIdeal.Read
import proofs.«131663_j33887291966072_2_alg».proof.Proof.Spec
import proofs.«131663_j33887291966072_2_alg».proof.Proof.RefLayer1
import proofs.«131663_j33887291966072_2_alg».proof.Proof.RefLayer2
import proofs.«131663_j33887291966072_2_alg».proof.Proof.Total
set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.TcCoe Idealize.ShloMosaic.ValueIdx Cert.Sage

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal))

/-- The reference's neighbour sum: for every node, the sum of the rows of `h` at the sources of its incoming edges. -/
def nbrSumR (e : (⟨S2x1600000, .i32⟩ : BufTy).Contents (Elt Ideal)) (h : (⟨S100000x64, .f32⟩ : BufTy).Contents (Elt Ideal)) : (⟨S100000x64, .f32⟩ : BufTy).Contents (Elt Ideal) :=
  Host.scatterAdd (F := Ideal) (φ := .f32) scatter_S100000x64_S1600000x1_S1600000x64_1_0_0_1 (val_main_v11 (F := Ideal))
    (val_main_v12 (F := Ideal) e)
    (Host.gather gather_S100000x64_S1600000x1_S1600000x64_1_0_n_n_0_1_164 h (val_main_v9 (F := Ideal) e))

/-- The first layer's neighbour sums are that operation on the features. -/
theorem v13_eq : val_main_v13 (F := Ideal) x0 x1 = nbrSumR x1 x0 := by
  unfold val_main_v13 val_main_v10 nbrSumR
  rfl

/-- The second spelling of the source indices is the first. -/
theorem v47_eq : val_main_v47 (F := Ideal) x1 = val_main_v9 (F := Ideal) x1 := by
  unfold val_main_v47 val_main_v9 val_main_v46 val_main_v8 val_main_v43 val_main_v5 val_main_v45 val_main_v7
    val_main_v42 val_main_v4 val_main_v44 val_main_v6 val_main_c_6 val_main_c val_main_c_7 val_main_c_0
  rfl

/-- The second layer's neighbour sums are the same operation on the first layer's table. -/
theorem v51_eq :
    val_main_v51 (F := Ideal) x0 x1 x2 x3 x4 x5 = nbrSumR x1 (val_main_v41 (F := Ideal) x0 x1 x2 x3 x4 x5) := by
  unfold val_main_v51 val_main_v48 nbrSumR
  rw [v47_eq]
  unfold val_main_v49 val_main_v11 val_main_v50 val_main_v12 val_main_cst_8 val_main_cst
  rfl

/-- The degree column is computed twice, the same way. -/
theorem v55_eq : val_main_v55 (F := Ideal) x1 = val_main_v17 (F := Ideal) x1 := by
  unfold val_main_v55 val_main_v17 val_main_v53 val_main_v15 val_main_v54 val_main_v16 val_main_v52 val_main_v14
    val_main_cst_10 val_main_cst_2 val_main_cst_9 val_main_cst_1
  rfl

/-- THE REFERENCE'S RESULT: the network of its arguments. -/
theorem ref_eq :
    val_main_v89 (F := Ideal) x0 x1 x2 x3 x4 x5 x6 x7 x8 x9 x10 x11 x12 x13
      = total (nbrSumR x1) (val_main_v17 (F := Ideal) x1) x0 (val_main_v22 (F := Ideal) x2) (val_main_v27 (F := Ideal) x4)
          (fun k => x3 (ix1 k)) (fun k => x5 (ix1 k)) (val_main_v60 (F := Ideal) x6) (val_main_v65 (F := Ideal) x8)
          (fun k => x7 (ix1 k)) (fun k => x9 (ix1 k)) (val_main_v80 (F := Ideal) x10) (fun k => x11 (ix1 k))
          (val_main_v85 (F := Ideal) x12) (fun k => x13 (ix1 k)) := by
  rw [head_eq, layer2_eq, v51_eq, v55_eq, layer1_eq, v13_eq]
  unfold total
  rfl

end Cert.ReferenceIdeal.Hand

end
-- ==== Proof.lean ====
/-
  A two-layer mean-aggregating graph network with a two-map head, on 100000 nodes and 1.6 million edges: the kernel
  program against its reference, as extended reals.

  Both programs compute `Cert.Sage.total` (Proof/Total.lean) of the same arrays. The kernel program gathers and sums
  neighbour rows and counts degrees on the host, and runs each layer in a region that handles 5000 node rows per grid
  point (the second region also applies the head); since every entry of a layer's table depends on ONE row of each
  row-indexed operand, the twenty blocks of a region are the row blocks of one table (Proof/Blocks0.lean,
  Proof/Blocks1.lean over Proof/Body.lean). The reference computes the same tables with whole-array host operations
  (Proof/RefLayer1.lean, Proof/RefLayer2.lean, Proof/RefTotal.lean). The changes of float format around the kernel's
  matrix products are the identity on extended reals, a matrix product into a zero accumulator and a host contraction
  are the same finite sum, and nothing else differs: no algebraic law beyond that is used, and the precondition is
  never opened. The two programs' neighbour-sum and degree operations are the same host operations on the same edge
  list; they are carried as named functions and compared once, unopened (`nbrSum_eq`, `degree_eq`).
-/
import proofs.«131663_j33887291966072_2_alg».proof.Defs
import proofs.«131663_j33887291966072_2_alg».proof.Proof.Gen.Kernel
import proofs.«131663_j33887291966072_2_alg».proof.Proof.Gen.Kernel.Frame
import proofs.«131663_j33887291966072_2_alg».proof.Proof.Gen.KernelIdeal
import proofs.«131663_j33887291966072_2_alg».proof.Proof.Gen.KernelIdeal.Frame
import proofs.«131663_j33887291966072_2_alg».proof.Proof.Gen.ReferenceIdeal
import proofs.«131663_j33887291966072_2_alg».proof.Proof.Gen.ReferenceIdeal.Run
import proofs.«131663_j33887291966072_2_alg».proof.Proof.Gen.ReferenceIdeal.Read
import proofs.«131663_j33887291966072_2_alg».proof.Proof.Gen.Pre_finite_inputs
import proofs.«131663_j33887291966072_2_alg».proof.Proof.KValue
import proofs.«131663_j33887291966072_2_alg».proof.Proof.RefTotal

set_option maxRecDepth 16384

noncomputable section

namespace Cert.Proof

open Idealize.ShloMosaic Idealize.ShloMosaic.TcCoe Idealize.SL.Sem Idealize.ShloMosaic.ValueIdx

/-- The two programs' neighbour sums are one operation: the same slices of the edge list, the same index
    normalisation, the same gather of rows and the same scatter-add. -/
theorem nbrSum_eq (e : Cert.KernelIdeal.Hand.Edges) (h : Cert.KernelIdeal.Hand.Tbl) :
    Cert.KernelIdeal.Hand.nbrSum e h = Cert.ReferenceIdeal.Hand.nbrSumR e h := by
  unfold Cert.KernelIdeal.Hand.nbrSum Cert.KernelIdeal.Hand.srcOf Cert.KernelIdeal.Hand.dstOf
    Cert.ReferenceIdeal.Hand.nbrSumR Cert.ReferenceIdeal.Read.val_main_v11 Cert.ReferenceIdeal.Read.val_main_v12
    Cert.ReferenceIdeal.Read.val_main_v9 Cert.ReferenceIdeal.Read.val_main_v8 Cert.ReferenceIdeal.Read.val_main_v5
    Cert.ReferenceIdeal.Read.val_main_v7 Cert.ReferenceIdeal.Read.val_main_v4 Cert.ReferenceIdeal.Read.val_main_v6
    Cert.ReferenceIdeal.Read.val_main_c Cert.ReferenceIdeal.Read.val_main_c_0 Cert.ReferenceIdeal.Read.val_main_cst
    Cert.ReferenceIdeal.Read.val_main_v3 Cert.ReferenceIdeal.Read.val_main_v2 Cert.ReferenceIdeal.Read.val_main_v1
    Cert.ReferenceIdeal.Read.val_main_v0
  rfl

/-- The two programs' degree columns are one operation. -/
theorem degree_eq (e : Cert.KernelIdeal.Hand.Edges) :
    Cert.KernelIdeal.Hand.degree e = Cert.ReferenceIdeal.Read.val_main_v17 (F := Ideal) e := by
  unfold Cert.KernelIdeal.Hand.degree Cert.KernelIdeal.Hand.dstOf Cert.ReferenceIdeal.Read.val_main_v17
    Cert.ReferenceIdeal.Read.val_main_v15 Cert.ReferenceIdeal.Read.val_main_v16 Cert.ReferenceIdeal.Read.val_main_v14
    Cert.ReferenceIdeal.Read.val_main_cst_2 Cert.ReferenceIdeal.Read.val_main_cst_1
    Cert.ReferenceIdeal.Read.val_main_v3 Cert.ReferenceIdeal.Read.val_main_v2
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- From memories that agree on the arguments both programs end with the network of those arguments in their result
    arrays: the kernel program by its run read through both regions, the reference by its run read operation by
    operation. -/
theorem algebraic : Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v89_eq, a0, a1, a2, a3, a4, a5, a6, a7, a8, a9, a10, a11, a12, a13,
    Cert.ReferenceIdeal.Hand.ref_eq]
  show _ = Cert.KernelIdeal.Hand.result m c
  unfold Cert.KernelIdeal.Hand.result
  have hn : Cert.KernelIdeal.Hand.nbrSum (m ((c.tc : Thread Cert.KernelIdeal.nD Cert.KernelIdeal.τ).loc Cert.KernelIdeal.main_arg1))
      = Cert.ReferenceIdeal.Hand.nbrSumR (m ((c.tc : Thread Cert.KernelIdeal.nD Cert.KernelIdeal.τ).loc Cert.KernelIdeal.main_arg1)) :=
    funext (nbrSum_eq _)
  rw [hn, degree_eq]
  unfold Cert.ReferenceIdeal.Read.val_main_v22 Cert.ReferenceIdeal.Read.val_main_v27 Cert.ReferenceIdeal.Read.val_main_v60
    Cert.ReferenceIdeal.Read.val_main_v65 Cert.ReferenceIdeal.Read.val_main_v80 Cert.ReferenceIdeal.Read.val_main_v85
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
